-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S4096x204 : Shape := ⟨2, ![4096, 204]⟩
abbrev S204 : Shape := ⟨1, ![204]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x204 : S_.BroadcastsInDim S4096x204 (![] : Fin 0 → Fin S4096x204.rank)
  reducesTo_S4096x204_S_d0_1 : S4096x204.ReducesTo [0, 1] S_

variable [Facts]

def fn_part1 {F : FTy → Type} [FloatOps F] (main_v13 : IVec S_ 1) (main_v16 : IVec S4096x204 1) : IVec S_ 1 :=
  let main_c_5 : IVec S_ 1 := constantI S_ 1 1#1
  let main_v17 : IVec S_ 1 := (fun x v => Host.reduce IntOp.andi x v reducesTo_S4096x204_S_d0_1 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S4096 .f32) (main_arg3 : FVec F S4096x204 .f32) (main_arg4 : IVec S204 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x204 .f32 := Host.absf main_arg3
  let main_cst_4 : FVec F S_ .f32 := constant S_ .f32 0x7F800000#32
  let main_v15 : FVec F S4096x204 .f32 := broadcastInDim S4096x204 ![] bcast_S_S4096x204 main_cst_4
  let main_v16 : IVec S4096x204 1 := cmpf .olt main_v14 main_v15
  fn_part1 (F := F) main_v13 main_v16
-- ==== Kernel.lean ====
abbrev S4096x4096 : Shape := ⟨2, ![4096, 4096]⟩
abbrev S4096 : Shape := ⟨1, ![4096]⟩
abbrev S4096x204 : Shape := ⟨2, ![4096, 204]⟩
abbrev S204 : Shape := ⟨1, ![204]⟩
abbrev S_ : Shape := ⟨0, ![]⟩
abbrev S4096x1 : Shape := ⟨2, ![4096, 1]⟩
abbrev S204x1 : Shape := ⟨2, ![204, 1]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 36
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x204, .f32⟩
  | .hbm, ⟨4, _⟩ => ⟨S204, .i32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .i32⟩
  | .hbm, ⟨24, _⟩ => ⟨S204, .i32⟩
  | .hbm, ⟨25, _⟩ => ⟨S204, .i1⟩
  | .hbm, ⟨26, _⟩ => ⟨S_, .i32⟩
  | .hbm, ⟨27, _⟩ => ⟨S204, .i32⟩
  | .hbm, ⟨28, _⟩ => ⟨S204, .i32⟩
  | .hbm, ⟨29, _⟩ => ⟨S204, .i32⟩
  | .hbm, ⟨30, _⟩ => ⟨S204x1, .i32⟩
  | .hbm, ⟨31, _⟩ => ⟨S4096x4096, .f32⟩
  | .hbm, ⟨32, _⟩ => ⟨S4096x4096, .bf16⟩
  | .hbm, ⟨33, _⟩ => ⟨S4096x4096, .bf16⟩
  | .hbm, ⟨34, _⟩ => ⟨S1x4096, .f32⟩
  | .hbm, ⟨35, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S204 : S_.BroadcastsInDim S204 (![] : Fin 0 → Fin S204.rank)
  bcast_S204_S204x1_0 : S204.BroadcastsInDim S204x1 (![0] : Fin 1 → Fin S204x1.rank)
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S4096x4096_S204x1_S4096x204_0_1_1_1_wf : ScatterDims.WF S4096x4096 S204x1 S4096x204 [0] [1] [1] 1
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x4096.size a
  hwx0_0 : ∀ i : grid0.Coords, EltTy.bits .bf16 = 32 ∨ (Rect.block (s := S4096x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def scatter_S4096x4096_S204x1_S4096x204_0_1_1_1 : ScatterDims S4096x4096 S204x1 S4096x204 where
  updateWindowDims := [0]
  insertedWindowDims := [1]
  scatterDimsToOperandDims := [1]
  indexVectorDim := 1
  wf := scatter_S4096x4096_S204x1_S4096x204_0_1_1_1_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v22) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S4096x204 : Shape := ⟨2, ![4096, 204]⟩
abbrev S204 : Shape := ⟨1, ![204]⟩
abbrev S_ : Shape := ⟨0, ![]⟩
abbrev S4096x1 : Shape := ⟨2, ![4096, 1]⟩
abbrev S204x1 : Shape := ⟨2, ![204, 1]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x204, .f32⟩
  | .hbm, ⟨4, _⟩ => ⟨S204, .i32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .i32⟩
  | .hbm, ⟨24, _⟩ => ⟨S204, .i32⟩
  | .hbm, ⟨25, _⟩ => ⟨S204, .i1⟩
  | .hbm, ⟨26, _⟩ => ⟨S_, .i32⟩
  | .hbm, ⟨27, _⟩ => ⟨S204, .i32⟩
  | .hbm, ⟨28, _⟩ => ⟨S204, .i32⟩
  | .hbm, ⟨29, _⟩ => ⟨S204, .i32⟩
  | .hbm, ⟨30, _⟩ => ⟨S204x1, .i32⟩
  | .hbm, ⟨31, _⟩ => ⟨S4096x4096, .f32⟩
  | .hbm, ⟨32, _⟩ => ⟨S4096x4096, .f32⟩
  | .hbm, ⟨33, _⟩ => ⟨S1x4096, .f32⟩
  | .hbm, ⟨34, _⟩ => ⟨S4096x4096, .f32⟩
  | .hbm, ⟨35, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S204 : S_.BroadcastsInDim S204 (![] : Fin 0 → Fin S204.rank)
  bcast_S204_S204x1_0 : S204.BroadcastsInDim S204x1 (![0] : Fin 1 → Fin S204x1.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  scatter_S4096x4096_S204x1_S4096x204_0_1_1_1_wf : ScatterDims.WF S4096x4096 S204x1 S4096x204 [0] [1] [1] 1
  dot_S4096x4096_S4096x4096_S4096x4096_1_1_0_0_n_n_wf : DotDims.WF S4096x4096 S4096x4096 S4096x4096 [1] [1] [0] [0] [] []

variable [Facts₀]

def scatter_S4096x4096_S204x1_S4096x204_0_1_1_1 : ScatterDims S4096x4096 S204x1 S4096x204 where
  updateWindowDims := [0]
  insertedWindowDims := [1]
  scatterDimsToOperandDims := [1]
  indexVectorDim := 1
  wf := scatter_S4096x4096_S204x1_S4096x204_0_1_1_1_wf
def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.LibRowOps.lean ====
/-
  Row-wise operations of a matrix at the ideal values, read at explicit coordinates.

  For an [R, C] f32 matrix: the sum along the lanes at row n is the sum over the columns of the entries of that row; the
  maximum along the lanes at row n is the fold of max, from the starting word's value, over the columns; a vector of R
  entries recast as an [R, 1] column and broadcast to [R, C] has at (n, c) the vector's entry n.  For an [R, K] × [C, K]
  product into the zero accumulator that contracts axis 1 of both operands (a product with the second operand
  transposed), entry (p, q) is Σ_k l(p, k) · r(q, k).  All hold at any extents; indices are written by coordinates.
-/
import Idealize.ShloMosaic.PureOps.Ideal.Laws
import Idealize.ShloMosaic.Lib.ValueIdx
import Idealize.ShloMosaic.Lib.Pipeline.Value

noncomputable section

open scoped BigOperators

namespace Cert.LibRow

open Idealize.ShloMosaic Idealize.ShloMosaic.ValueIdx

/-- A sum along the lanes of an [R, C] matrix, at row n, is the sum over the columns of the entries of that row. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (n : Fin R) :
    multiReduction .add [1] ⟨1, ![R]⟩ src 0x00000000#32 h hφ hacc (ix1 n) = ∑ a : Fin C, src (ix2 n a) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum along the lanes of an [R, C] matrix, at row n, is the fold of max, from the starting word's value, over
    the columns of the entries of that row. -/
theorem rowMax_apply {R C : Nat} (src : FVec Ideal ⟨2, ![R, C]⟩ .f32) (acc : BitVec 32)
    (h : Shape.Reduces (⟨2, ![R, C]⟩ : Shape) [1] ⟨1, ![R]⟩) (hφ : FKind.Formats .f32)
    (hacc : acc = FKind.maximumf.neutral .f32 hφ) (n : Fin R) :
    multiReduction .maximumf [1] ⟨1, ![R]⟩ src acc h hφ hacc (ix1 n)
      = (Finset.univ : Finset (Fin C)).fold max (Ideal.ofBits .f32 acc) (fun a => src (ix2 n a)) :=
  (Ideal.multiReduction_maximumf_single src acc h hφ hacc (ix1 n)).trans
    (congrArg (fun f => Finset.fold max (Ideal.ofBits .f32 acc) f (Finset.univ : Finset (Fin C)))
      (funext fun a => congrArg src (funext fun d => Fin.ext (by
        match d with
        | ⟨0, _⟩ => rfl
        | ⟨1, _⟩ => rfl))))

/-- A vector of R entries recast as an [R, 1] column and broadcast to [R, C] has at (n, c) the vector's entry n. -/
theorem colBroadcast_apply {R C : Nat} {α : Type} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (n : Fin R) (c : Fin C) :
    broadcastTo ⟨2, ![R, C]⟩ (shapeCast ⟨2, ![R, 1]⟩ v h1) h2 (ix2 n c) = v (ix1 n) := by
  refine (broadcastTo_apply (shapeCast ⟨2, ![R, 1]⟩ v h1) h2 (ix2 n c) (ix2 n (0 : Fin 1)) fun ax => ?_).trans ?_
  · match ax with
    | ⟨0, _⟩ =>
      show n.val = if R = 1 then 0 else n.val
      split
      · have := n.isLt; omega
      · rfl
    | ⟨1, _⟩ => rfl
  · exact shapeCast_apply v h1 _ _ (by
      rw [Shape.rowMajor_val_one, Shape.rowMajor_val_two]
      show n.val = n.val * 1 + 0
      omega)

/-- `matmul D prec l r 0 (p, q) = Σ_k l(p, k) · r(q, k)` at the ideal values, for an [R, K] × [C, K] → [R, C] product
    contracting axis 1 of both operands. -/
theorem matmul_zero_nt_ix2 {R K C : Nat} {φ₁ φ₂ : FTy} (D : DotDims ⟨2, ![R, K]⟩ ⟨2, ![C, K]⟩ ⟨2, ![R, C]⟩)
    (hlc : D.lhsContracting = [1]) (hrc : D.rhsContracting = [1]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr0 : ∀ (i : (⟨2, ![R, C]⟩ : Shape).Idx) (c : D.contr.Idx), (D.rhsIdx i c 0).val = (i 1).val)
    (prec : Option ContractPrecision)
    (l : FVec Ideal ⟨2, ![R, K]⟩ φ₁) (r : FVec Ideal ⟨2, ![C, K]⟩ φ₂) (p : Fin R) (q : Fin C) :
    matmul D prec l r (constant ⟨2, ![R, C]⟩ .f32 0x00000000#32) (ix2 p q) = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 q k :=
    funext fun a => Fin.ext (by
      match a with
      | ⟨0, _⟩ => exact hr0 _ _
      | ⟨1, _⟩ => exact (D.rhsIdx_val_of_single hrc _ _).trans hk)
  rw [el, er]

end Cert.LibRow

end
-- ==== Proof.BlockEntry.lean ====
/-
  What the kernel body leaves in one output block, entry by entry, at the ideal values.

  An output block of 1024 × 1024 entries is visited at two consecutive grid points, one per half of the contraction axis.
  At the first the body clears the block and adds the product of the point's two input blocks; at the second it adds
  the product of that point's input blocks and then the bias row.  A product of a 1024 × 2048 block `a` with a
  1024 × 2048 block `b`, contracting the second axis of both, has at (p, q) the sum over k of a(p, k) · b(q, k).  So after
  the second point the block holds, at (p, q),

      ((0 + Σ_k a₀(p, k) · b₀(q, k)) + Σ_k a₁(p, k) · b₁(q, k)) + bias(0, q).
-/
import proofs.«117059_j20675972563027_2_alg».proof.Proof.Gen.KernelIdeal.Skeleton
import proofs.«117059_j20675972563027_2_alg».proof.Proof.LibRowOps
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The first coordinate of the left operand's index is the output row. -/
theorem lhs_row (i : S1024x1024.Idx) (c : dot_S1024x2048_S1024x2048_S1024x1024_1_1_0_0_n_n.contr.Idx) :
    (dot_S1024x2048_S1024x2048_S1024x1024_1_1_0_0_n_n.lhsIdx i c 0).val = (i 0).val := by
  unfold DotDims.lhsIdx
  rw [dif_neg (show ¬(0 : Fin S1024x2048.rank) ∈ dot_S1024x2048_S1024x2048_S1024x1024_1_1_0_0_n_n.lhsBatch by decide),
    dif_pos (show (0 : Fin S1024x2048.rank) ∈ dot_S1024x2048_S1024x2048_S1024x1024_1_1_0_0_n_n.lhsNonContracting by decide)]
  rfl

/-- The first coordinate of the right operand's index is the output column. -/
theorem rhs_row (i : S1024x1024.Idx) (c : dot_S1024x2048_S1024x2048_S1024x1024_1_1_0_0_n_n.contr.Idx) :
    (dot_S1024x2048_S1024x2048_S1024x1024_1_1_0_0_n_n.rhsIdx i c 0).val = (i 1).val := by
  unfold DotDims.rhsIdx
  rw [dif_neg (show ¬(0 : Fin S1024x2048.rank) ∈ dot_S1024x2048_S1024x2048_S1024x1024_1_1_0_0_n_n.rhsBatch by decide),
    dif_pos (show (0 : Fin S1024x2048.rank) ∈ dot_S1024x2048_S1024x2048_S1024x1024_1_1_0_0_n_n.rhsNonContracting by decide)]
  rfl

/-- One point's product block at (p, q): the sum over the 2048 positions k of a(p, k) · b(q, k). -/
theorem product_entry (a b : FVec Ideal S1024x2048 .bf16) (p q : Fin 1024) :
    matmul (F := Ideal) dot_S1024x2048_S1024x2048_S1024x1024_1_1_0_0_n_n none a b (constant S1024x1024 .f32 0x00000000#32) (ix2 p q)
      = ∑ k : Fin 2048, a (ix2 p k) * b (ix2 q k) :=
  Cert.LibRow.matmul_zero_nt_ix2 dot_S1024x2048_S1024x2048_S1024x1024_1_1_0_0_n_n rfl rfl rfl rfl lhs_row rhs_row none a b p q

/-- The block after its two points, at (p, q). -/
theorem two_points_entry (a0 b0 a1 b1 : Vec Ideal S1024x2048 .bf16) (bias : Vec Ideal S1x1024 .f32) (p q : Fin 1024) :
    k0_pay3 (F := Ideal) (k0_pay2 (F := Ideal) a1 b1 (k0_pay2 (F := Ideal) a0 b0 (k0_pay1 (F := Ideal)))) bias (ix2 p q)
      = ((0 + ∑ k : Fin 2048, a0 (ix2 p k) * b0 (ix2 q k)) + ∑ k : Fin 2048, a1 (ix2 p k) * b1 (ix2 q k))
          + bias (ix2 (0 : Fin 1) q) := by
  unfold k0_pay3 k0_pay2 k0_pay1
  simp only [shapeCast_self]
  simp only [addf_apply, broadcast_apply]
  rw [product_entry a0 b0 p q, product_entry a1 b1 p q, broadcastTo_1b_ab_apply bias _ p q]
  rw [Ideal.ofBits_def, Ideal.ofBits_zero_f32]

end Cert.KernelIdeal.Block

end
-- ==== Proof.InputBlocks.lean ====
/-
  Which entries of the three input arrays a grid point's blocks hold.

  The grid has 4 × 4 × 2 points, numbered row-major: point t has row-block t / 8, column-block (t / 2) % 4 and
  contraction half t % 2.  At point t
    * the block of the activations (1024 × 2048) is row-block t / 8, half t % 2:       entry (p, k) is array entry (1024·(t/8) + p, 2048·(t%2) + k);
    * the block of the weights (1024 × 2048) is row-block (t / 2) % 4, half t % 2:     entry (q, k) is array entry (1024·((t/2)%4) + q, 2048·(t%2) + k);
    * the block of the bias row (1 × 1024) is column-block (t / 2) % 4:                 entry (0, q) is array entry (0, 1024·((t/2)%4) + q).
  The three block-index facts are decided once over the 32 points; a block's coordinate on an axis is always
  block index × block extent + the coordinate inside the block.
-/
import proofs.«117059_j20675972563027_2_alg».proof.Proof.Gen.KernelIdeal.Frame
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx

variable {F : FTy → Type} [FloatOps F]
variable (m : (ℓ : Loc nD τ sig) → Buf (Elt F) ℓ)

/-- The activations' block at point t: row-block t / 8, contraction half t % 2. -/
theorem act_block_index : ∀ t : Fin cfg0.N, win0_0.index t (0 : Fin 2) = t.val / 8 ∧ win0_0.index t (1 : Fin 2) = t.val % 2 :=
  (by decide +kernel : ∀ t : Fin grid0.N, _)

/-- The weights' block at point t: row-block (t / 2) % 4, contraction half t % 2. -/
theorem wgt_block_index : ∀ t : Fin cfg0.N, win0_1.index t (0 : Fin 2) = t.val / 2 % 4 ∧ win0_1.index t (1 : Fin 2) = t.val % 2 :=
  (by decide +kernel : ∀ t : Fin grid0.N, _)

/-- The bias row's block at point t: column-block (t / 2) % 4. -/
theorem bias_block_index : ∀ t : Fin cfg0.N, win0_2.index t (0 : Fin 2) = 0 ∧ win0_2.index t (1 : Fin 2) = t.val / 2 % 4 :=
  (by decide +kernel : ∀ t : Fin grid0.N, _)

/-- Entry (p, k) of the activations' block at point t is entry (r, s) of the array the region finds, when
    r = 1024·(t/8) + p and s = 2048·(t%2) + k. -/
theorem act_block_entry (c : Dev nD) (t : Fin cfg0.N) (p : Fin 1024) (k : Fin 2048) (r s : Fin 4096)
    (hr : r.val = t.val / 8 * 1024 + p.val) (hs : s.val = t.val % 2 * 2048 + k.val) :
    iblk m c 0 t (ix2 p k) = V m c main_v22 (ix2 r s) := by
  obtain ⟨e0, e1⟩ := act_block_index t
  show V m c main_v22 (((cfg0.win 0).blk t).view.emb (ix2 p k)) = V m c main_v22 (ix2 r s)
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 2048 + 1 * k.val = s.val; rw [e1, hs]; omega

/-- Entry (q, k) of the weights' block at point t is entry (r, s) of the array the region finds, when
    r = 1024·((t/2)%4) + q and s = 2048·(t%2) + k. -/
theorem wgt_block_entry (c : Dev nD) (t : Fin cfg0.N) (q : Fin 1024) (k : Fin 2048) (r s : Fin 4096)
    (hr : r.val = t.val / 2 % 4 * 1024 + q.val) (hs : s.val = t.val % 2 * 2048 + k.val) :
    iblk m c 1 t (ix2 q k) = V m c main_v21 (ix2 r s) := by
  obtain ⟨e0, e1⟩ := wgt_block_index t
  show V m c main_v21 (((cfg0.win 1).blk t).view.emb (ix2 q k)) = V m c main_v21 (ix2 r s)
  refine congrArg _ (funext fun a => Fin.ext ?_)
  match a with
  | ⟨0, _⟩ => show win0_1.index t (0 : Fin 2) * 1024 + 1 * q.val = r.val; rw [e0, hr]; omega
  | ⟨1, _⟩ => show win0_1.index t (1 : Fin 2) * 2048 + 1 * k.val = s.val; rw [e1, hs]; omega

/-- Entry (0, q) of the bias row's block at point t is entry (0, s) of the array the region finds, when
    s = 1024·((t/2)%4) + q. -/
theorem bias_block_entry (c : Dev nD) (t : Fin cfg0.N) (q : Fin 1024) (s : Fin 4096)
    (hs : s.val = t.val / 2 % 4 * 1024 + q.val) :
    iblk m c 2 t (ix2 (0 : Fin 1) q) = V m c main_v23 (ix2 (0 : Fin 1) s) := by
  obtain ⟨e0, e1⟩ := bias_block_index t
  show V m c main_v23 (((cfg0.win 2).blk t).view.emb (ix2 (0 : Fin 1) q)) = V m c main_v23 (ix2 (0 : Fin 1) s)
  refine congrArg _ (funext fun a => Fin.ext ?_)
  match a with
  | ⟨0, _⟩ => show win0_2.index t (0 : Fin 2) * 1 + 1 * 0 = 0; rw [e0]
  | ⟨1, _⟩ => show win0_2.index t (1 : Fin 2) * 1024 + 1 * q.val = s.val; rw [e1, hs]; omega

end Cert.KernelIdeal.Blocks

end
-- ==== Proof.SumHalves.lean ====
/-
  A sum over 4096 consecutive positions, taken in two halves.

  The contraction axis of the product has 4096 positions.  One side of the certificate adds all 4096 products at once;
  the other starts from zero, adds the 2048 products of the first half, then the 2048 products of the second half.  In any
  commutative additive monoid the two totals agree: addition is associative, and zero is neutral.  Nothing here needs the
  summands to be finite, so the law holds as it stands on the extended reals.
-/
import Mathlib.Algebra.BigOperators.Fin

open scoped BigOperators

namespace Cert.Halves

/-- Position `k` of the first half, as a position of the whole axis. -/
def lo (k : Fin 2048) : Fin 4096 := ⟨k.val, by have := k.isLt; omega⟩

/-- Position `k` of the second half, as a position of the whole axis. -/
def hi (k : Fin 2048) : Fin 4096 := ⟨2048 + k.val, by have := k.isLt; omega⟩

@[simp] theorem lo_val (k : Fin 2048) : (lo k).val = k.val := rfl
@[simp] theorem hi_val (k : Fin 2048) : (hi k).val = 2048 + k.val := rfl

/-- The whole sum is zero, plus the first half's sum, plus the second half's sum. -/
theorem sum_halves {β : Type*} [AddCommMonoid β] (f : Fin 4096 → β) :
    ∑ k : Fin 4096, f k = (0 + ∑ k : Fin 2048, f (lo k)) + ∑ k : Fin 2048, f (hi k) := by
  rw [zero_add]
  exact Fin.sum_univ_add (a := 2048) (b := 2048) f

end Cert.Halves
-- ==== Proof.KernelEntry.lean ====
/-
  The kernel's result array, entry by entry, at the ideal values.

  The result entry (r, c) lies in the output block of row-block r / 1024 and column-block c / 1024, at place
  (r % 1024, c % 1024).  That block is visited at two consecutive grid points, t₀ = 2·(4·(r/1024) + c/1024) and
  t₁ = t₀ + 1, one per half of the contraction axis; after the second the block is written back.  With the blocks the
  two points are handed read as entries of the arrays the region finds (activations X, weights W, bias row B), the
  result entry is

      ((0 + Σ_{k<2048} X(r, k) · W(c, k)) + Σ_{k<2048} X(r, 2048 + k) · W(c, 2048 + k)) + B(0, c).
-/
import proofs.«117059_j20675972563027_2_alg».proof.Proof.Gen.KernelIdeal.Value
import proofs.«117059_j20675972563027_2_alg».proof.Proof.BlockEntry
import proofs.«117059_j20675972563027_2_alg».proof.Proof.InputBlocks
import proofs.«117059_j20675972563027_2_alg».proof.Proof.SumHalves

noncomputable section

open scoped BigOperators

namespace Cert.KernelIdeal.Result

open Cert.KernelIdeal Cert.KernelIdeal.Gen Cert.KernelIdeal.Value Idealize.ShloMosaic Idealize.ShloMosaic.TcCoe
  Idealize.ShloMosaic.ValueIdx Cert.Halves

variable (m : (ℓ : Loc nD τ sig) → Buf (Elt Ideal) ℓ)

/-- The result array after the run at entry `i`, over the arrays the region finds: activations `X`, weights `W`,
    bias row `B`. -/
theorem result_entry (c : Dev nD) (X W : S4096x4096.Idx → EReal) (B : S1x4096.Idx → EReal)
    (hX : (V m c main_v22 : S4096x4096.Idx → EReal) = X) (hW : (V m c main_v21 : S4096x4096.Idx → EReal) = W)
    (hB : (V m c main_v23 : S1x4096.Idx → EReal) = B) (i : S4096x4096.Idx) :
    (G3 (F := Ideal) m c : S4096x4096.Idx → EReal) i
      = ((0 + ∑ k : Fin 2048, X (ix2 (i 0) (lo k)) * W (ix2 (i 1) (lo k)))
          + ∑ k : Fin 2048, X (ix2 (i 0) (hi k)) * W (ix2 (i 1) (hi k)))
        + B (ix2 (0 : Fin 1) (i 1)) := by
  have hN : cfg0.N = 32 := N_0
  have h0 : (i 0).val < 4096 := (i 0).isLt
  have h1 : (i 1).val < 4096 := (i 1).isLt
  have hrun : run3Of i = 4 * ((i 0).val / 1024 - 0) + 1 * ((i 1).val / 1024 - 0) := rfl
  have hlt : 2 * run3Of i + (0 + 1) < cfg0.N := by rw [hN, hrun]; omega
  have hlt0 : 2 * run3Of i + 0 < cfg0.N := by rw [hN, hrun]; omega
  -- the place of the entry inside its block
  have hp : (i 0).val % 1024 < 1024 := Nat.mod_lt _ (by decide)
  have hq : (i 1).val % 1024 < 1024 := Nat.mod_lt _ (by decide)
  have hl : loc3Of i = ix2 (⟨(i 0).val % 1024, hp⟩ : Fin 1024) (⟨(i 1).val % 1024, hq⟩ : Fin 1024) :=
    funext fun a => Fin.ext (by
      match a with
      | ⟨0, _⟩ => rfl
      | ⟨1, _⟩ => rfl)
  unfold G3
  rw [dif_pos (show 2 * run3Of i + 1 < cfg0.N from hlt)]
  -- the fold over the block's two points: the reset at the first, the step at the second
  show step3 m c (2 * run3Of i + (0 + 1)) hlt (reset3 m c (2 * run3Of i) hlt0) (loc3Of i) = _
  unfold step3 reset3
  rw [hl]
  refine (Block.two_points_entry (iblk m c 0 ⟨2 * run3Of i, hlt0⟩) (iblk m c 1 ⟨2 * run3Of i, hlt0⟩)
    (iblk m c 0 ⟨2 * run3Of i + (0 + 1), hlt⟩) (iblk m c 1 ⟨2 * run3Of i + (0 + 1), hlt⟩)
    (iblk m c 2 ⟨2 * run3Of i + (0 + 1), hlt⟩) ⟨(i 0).val % 1024, hp⟩ ⟨(i 1).val % 1024, hq⟩).trans ?_
  -- first point (first half of the contraction axis): its blocks' entries as array entries
  have a0 : ∀ k : Fin 2048, iblk m c 0 ⟨2 * run3Of i, hlt0⟩ (ix2 ⟨(i 0).val % 1024, hp⟩ k) = X (ix2 (i 0) (lo k)) := fun k =>
    (Blocks.act_block_entry m c ⟨2 * run3Of i, hlt0⟩ ⟨(i 0).val % 1024, hp⟩ k (i 0) (lo k)
      (by show (i 0).val = 2 * run3Of i / 8 * 1024 + (i 0).val % 1024; rw [hrun]; omega)
      (by show (lo k).val = 2 * run3Of i % 2 * 2048 + k.val; rw [lo_val, hrun]; omega)).trans (congrFun hX _)
  have b0 : ∀ k : Fin 2048, iblk m c 1 ⟨2 * run3Of i, hlt0⟩ (ix2 ⟨(i 1).val % 1024, hq⟩ k) = W (ix2 (i 1) (lo k)) := fun k =>
    (Blocks.wgt_block_entry m c ⟨2 * run3Of i, hlt0⟩ ⟨(i 1).val % 1024, hq⟩ k (i 1) (lo k)
      (by show (i 1).val = 2 * run3Of i / 2 % 4 * 1024 + (i 1).val % 1024; rw [hrun]; omega)
      (by show (lo k).val = 2 * run3Of i % 2 * 2048 + k.val; rw [lo_val, hrun]; omega)).trans (congrFun hW _)
  -- second point (second half)
  have a1 : ∀ k : Fin 2048, iblk m c 0 ⟨2 * run3Of i + (0 + 1), hlt⟩ (ix2 ⟨(i 0).val % 1024, hp⟩ k) = X (ix2 (i 0) (hi k)) := fun k =>
    (Blocks.act_block_entry m c ⟨2 * run3Of i + (0 + 1), hlt⟩ ⟨(i 0).val % 1024, hp⟩ k (i 0) (hi k)
      (by show (i 0).val = (2 * run3Of i + (0 + 1)) / 8 * 1024 + (i 0).val % 1024; rw [hrun]; omega)
      (by show (hi k).val = (2 * run3Of i + (0 + 1)) % 2 * 2048 + k.val; rw [hi_val, hrun]; omega)).trans (congrFun hX _)
  have b1 : ∀ k : Fin 2048, iblk m c 1 ⟨2 * run3Of i + (0 + 1), hlt⟩ (ix2 ⟨(i 1).val % 1024, hq⟩ k) = W (ix2 (i 1) (hi k)) := fun k =>
    (Blocks.wgt_block_entry m c ⟨2 * run3Of i + (0 + 1), hlt⟩ ⟨(i 1).val % 1024, hq⟩ k (i 1) (hi k)
      (by show (i 1).val = (2 * run3Of i + (0 + 1)) / 2 % 4 * 1024 + (i 1).val % 1024; rw [hrun]; omega)
      (by show (hi k).val = (2 * run3Of i + (0 + 1)) % 2 * 2048 + k.val; rw [hi_val, hrun]; omega)).trans (congrFun hW _)
  have bb : iblk m c 2 ⟨2 * run3Of i + (0 + 1), hlt⟩ (ix2 (0 : Fin 1) ⟨(i 1).val % 1024, hq⟩) = B (ix2 (0 : Fin 1) (i 1)) :=
    (Blocks.bias_block_entry m c ⟨2 * run3Of i + (0 + 1), hlt⟩ ⟨(i 1).val % 1024, hq⟩ (i 1)
      (by show (i 1).val = (2 * run3Of i + (0 + 1)) / 2 % 4 * 1024 + (i 1).val % 1024; rw [hrun]; omega)).trans (congrFun hB _)
  refine congrArg₂ (· + ·) (congrArg₂ (· + ·) (congrArg (0 + ·) (Finset.sum_congr rfl fun k _ => ?_))
    (Finset.sum_congr rfl fun k _ => ?_)) bb
  · exact congrArg₂ (· * ·) (a0 k) (b0 k)
  · exact congrArg₂ (· * ·) (a1 k) (b1 k)

end Cert.KernelIdeal.Result

end
-- ==== Proof.EntryArrays.lean ====
/-
  What the region finds in its three input arrays, at the ideal values.

  Before the region the host program prepares three arrays.
    * The activations narrowed to bf16.  At the ideal values a change of float format is the identity, so this is the
      activation matrix itself.
    * The weights, quantized row by row (the sign of the row-centred weight times the row's mean absolute deviation), with
      the outlier columns overwritten by the kept full-precision values, then narrowed to bf16.  The reference prepares the
      same matrix by the same operations; it is named once, as the reference's stage, and never opened: both sides carry it
      as one and the same matrix.
    * The bias vector laid as a 1 × 4096 row: entry (0, s) of the row is entry s of the vector.
-/
import proofs.«117059_j20675972563027_2_alg».proof.Proof.Gen.KernelIdeal.Frame
import proofs.«117059_j20675972563027_2_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ)

/-- Narrowing an f32 array to bf16 is the identity at the ideal values. -/
theorem narrow_id {s : Shape} (a : FVec Ideal s .f32) (h : FTy.bits .bf16 < FTy.bits .f32) : truncf .bf16 a h = a := rfl

/-- The activations the region finds are the activations as launched. -/
theorem act_array (c : Dev nD) :
    (V m c main_v22 : S4096x4096.Idx → EReal) = m ((c : Thread nD τ).loc main_arg0) := by
  dsimp only [Gen.V, Gen.hostOps0]
  after_results
  rfl

set_option maxHeartbeats 2000000 in
/-- The weights the region finds are the quantized weights with the outlier columns put back: the matrix the reference's
    own preparation gives, of the same arguments. -/
theorem wgt_array (c : Dev nD) :
    (V m c main_v21 : S4096x4096.Idx → EReal)
      = Cert.ReferenceIdeal.Read.val_main_v20 (F := Ideal) (m ((c : Thread nD τ).loc main_arg1))
          (m ((c : Thread nD τ).loc main_arg3)) (m ((c : Thread nD τ).loc main_arg4)) := by
  dsimp only [Gen.V, Gen.hostOps0]
  after_results_simp
  rw [narrow_id]
  rfl

/-- Entry (0, s) of the bias row the region finds is entry s of the bias vector as launched. -/
theorem bias_array_entry (c : Dev nD) (s : Fin 4096) :
    (V m c main_v23 : S1x4096.Idx → EReal) (ix2 (0 : Fin 1) s) = m ((c : Thread nD τ).loc main_arg2) (ix1 s) := by
  have e : (V m c main_v23 : S1x4096.Idx → EReal)
      = shapeCast S1x4096 (m ((c : Thread nD τ).loc main_arg2)) shapeCasts_S4096_S1x4096 := by
    dsimp only [Gen.V, Gen.hostOps0]
    after_results
    rfl
  rw [e]
  exact shapeCast_apply _ shapeCasts_S4096_S1x4096 _ _ (by
    rw [Shape.rowMajor_val_one, Shape.rowMajor_val_two]
    show s.val = 0 * 4096 + s.val
    omega)

end Cert.KernelIdeal.Entry

end
-- ==== Proof.RefLinear.lean ====
/-
  The reference's result, entry by entry, at the ideal values.

  The reference multiplies the activations x by the transposed patched weight matrix W in one product over the whole
  contraction axis and adds the bias vector along the columns:

      result(r, c) = Σ_{k<4096} x(r, k) · W(c, k) + bias(c).

  W is the quantized weight matrix with the outlier columns put back; it is carried closed, as the stage that computes it.
-/
import proofs.«117059_j20675972563027_2_alg».proof.Proof.Gen.ReferenceIdeal.Read
import Idealize.ShloMosaic.Lib.ValueIdx
import Idealize.ShloMosaic.PureOps.Ideal.Laws

noncomputable section

open scoped BigOperators

namespace Cert.ReferenceIdeal.Linear

open Cert.ReferenceIdeal Cert.ReferenceIdeal.Gen Cert.ReferenceIdeal.Read Idealize.ShloMosaic Idealize.ShloMosaic.ValueIdx

/-- The left operand's index at output entry `i` and position `k`: row `i 0`, column `k`. -/
theorem lidx_eq (i : S4096x4096.Idx) (k : Fin 4096) : lidx_main_v21 i k = ix2 (i 0) k :=
  funext fun a => Fin.ext (by
    match a with
    | ⟨0, _⟩ => rfl
    | ⟨1, _⟩ => rfl)

/-- The right operand's index at output entry `i` and position `k`: row `i 1` (the product is with the transpose),
    column `k`. -/
theorem ridx_eq (i : S4096x4096.Idx) (k : Fin 4096) : ridx_main_v21 i k = ix2 (i 1) k :=
  funext fun a => Fin.ext (by
    match a with
    | ⟨0, _⟩ => rfl
    | ⟨1, _⟩ => rfl)

/-- The bias broadcast along the rows reads, at entry `i`, the bias at column `i 1`. -/
theorem bidx_eq (i : S4096x4096.Idx) : idx_main_v22 (idx_main_v23 i) = ix1 (i 1) :=
  funext fun a => Fin.ext (by
    match a with
    | ⟨0, _⟩ => rfl)

/-- The reference's result at entry `i`. -/
theorem result_entry (x w : (⟨S4096x4096, .f32⟩ : BufTy).Contents (Elt Ideal)) (b : (⟨S4096, .f32⟩ : BufTy).Contents (Elt Ideal))
    (ow : (⟨S4096x204, .f32⟩ : BufTy).Contents (Elt Ideal)) (idx : (⟨S204, .i32⟩ : BufTy).Contents (Elt Ideal)) (i : S4096x4096.Idx) :
    val_main_v24 (F := Ideal) x w b ow idx i
      = (∑ k : Fin 4096, x (ix2 (i 0) k) * (val_main_v20 (F := Ideal) w ow idx) (ix2 (i 1) k)) + b (ix1 (i 1)) := by
  rw [val_main_v24_apply, val_main_v21_apply, val_main_v23_apply, val_main_v22_apply, bidx_eq]
  simp only [lidx_eq, ridx_eq]
  rfl

end Cert.ReferenceIdeal.Linear

end
-- ==== Proof.SameResult.lean ====
/-
  The two results are one array.

  Run on the same arguments, the reference leaves at entry (r, c)

      Σ_{k<4096} x(r, k) · W(c, k) + bias(c)

  and the kernel leaves

      ((0 + Σ_{k<2048} x(r, k) · W(c, k)) + Σ_{k<2048} x(r, 2048 + k) · W(c, 2048 + k)) + bias(c),

  with the same patched weight matrix W on both sides.  The two agree because a sum over 4096 positions is zero plus the
  sum over its first half plus the sum over its second half; no entry needs to be finite for that.
-/
import proofs.«117059_j20675972563027_2_alg».proof.Proof.KernelEntry
import proofs.«117059_j20675972563027_2_alg».proof.Proof.EntryArrays
import proofs.«117059_j20675972563027_2_alg».proof.Proof.RefLinear
import proofs.«117059_j20675972563027_2_alg».proof.Proof.SumHalves

noncomputable section

open scoped BigOperators

namespace Cert.SameResult

open Idealize.ShloMosaic Idealize.ShloMosaic.TcCoe Idealize.SL.Sem Idealize.ShloMosaic.ValueIdx Cert.Halves

/-- The reference's result, computed from the kernel's argument arrays, is the array the kernel's run ends with. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v24 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
      = Cert.KernelIdeal.Value.G3 (F := Ideal) m c := by
  funext i
  rw [Cert.ReferenceIdeal.Linear.result_entry, sum_halves]
  exact ((Cert.KernelIdeal.Result.result_entry m c _ _ _ (Cert.KernelIdeal.Entry.act_array m c)
      (Cert.KernelIdeal.Entry.wgt_array m c) rfl i).trans
    (congrArg (_ + ·) (Cert.KernelIdeal.Entry.bias_array_entry m c (i 1)))).symm

end Cert.SameResult

end
-- ==== Proof.lean ====
/-
  A linear layer whose weight matrix is binarized row by row, with a few full-precision "outlier" columns put back:

      out(r, c) = Σ_k x(r, k) · W(c, k) + bias(c),      W = patch(sign(w − rowmean(w)) · rowmean|w − rowmean(w)|, columns, kept values).

  Both programs prepare W by the same host operations.  The kernel then narrows x and W to bf16 (the identity at the ideal
  values) and computes the product block by block: each 1024 × 1024 output block is cleared, receives the product over
  the first half of the contraction axis, then the product over the second half, then the bias row.  The reference takes
  one product over the whole axis and adds the bias.  At every entry the two are equal because a sum over 4096 positions
  is zero plus the sum over its first 2048 plus the sum over its last 2048 positions — associativity of addition and the
  neutrality of zero on the extended reals, which hold without any finiteness assumption.

  The three frame claims are the programs' runs with their results forgotten; the idealization rewrote nothing, so the
  preservation claim is trivial; the algebraic claim sets the two runs side by side on agreeing arguments and closes by
  the entry-by-entry equality above.
-/
import proofs.«117059_j20675972563027_2_alg».proof.Defs
import proofs.«117059_j20675972563027_2_alg».proof.Proof.Gen.Kernel.Frame
import proofs.«117059_j20675972563027_2_alg».proof.Proof.Gen.KernelIdeal.Value
import proofs.«117059_j20675972563027_2_alg».proof.Proof.Gen.Pre_finite_inputs
import proofs.«117059_j20675972563027_2_alg».proof.Proof.Gen.ReferenceIdeal.Run
import proofs.«117059_j20675972563027_2_alg».proof.Proof.SameResult
import Idealize.ShloMosaic.Adequacy
import Idealize.ShloMosaic.Init

noncomputable section

namespace Cert.Proof

open Idealize.ShloMosaic Idealize.SL.Sem

/-- The idealized kernel terminates without fault and leaves its arguments unchanged: its run, with the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference terminates without fault and leaves its arguments unchanged: its run, with the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the arguments both idealized programs end, the kernel with its result array at the fold of
    each output block's two grid points, the reference with its result at the whole product plus the bias; rewritten over
    the same arguments, these are one array entry by entry. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v24_eq (F := Ideal) _ _ _ _ _).trans (Cert.SameResult.result_eq m c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
